-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_v33

def fn {F : FTy → Type} [FloatOps F] (main_arg0 : FVec F S50000x64 .f32) (main_arg1 : FVec F S800000x64 .f32) (main_arg2 : IVec S800000 32) (main_arg3 : IVec S800000 32) (main_arg4 : FVec F S192x64 .f32) (main_arg5 : FVec F S64 .f32) (main_arg6 : FVec F S64x64 .f32) (main_arg7 : FVec F S64 .f32) (main_arg8 : FVec F S64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S192x64 : Shape := ⟨2, ![192, 64]⟩
abbrev S64 : Shape := ⟨1, ![64]⟩
abbrev S64x64 : Shape := ⟨2, ![64, 64]⟩
abbrev S_ : Shape := ⟨0, ![]⟩
abbrev S800000x1 : Shape := ⟨2, ![800000, 1]⟩
abbrev S1x64 : Shape := ⟨2, ![1, 64]⟩
abbrev S8000x64 : Shape := ⟨2, ![8000, 64]⟩
abbrev S8000 : Shape := ⟨1, ![8000]⟩
abbrev S8000x1 : Shape := ⟨2, ![8000, 1]⟩

abbrev nBuf : Space → Nat
  | .hbm => 37
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S50000x64, .bf16⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .bf16⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S800000x64, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S8000x64, .f32⟩
  | .local _ .vmem, ⟨5, _⟩ => ⟨S8000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S8000x64, .f32⟩
  | .local _ .vmem, ⟨15, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  reduces_S8000x64_S8000 : S8000x64.Reduces [1] S8000
  shapeCasts_S8000_S8000x1 : S8000.ShapeCasts S8000x1
  broadcasts_S8000x1_S8000x64 : S8000x1.Broadcasts S8000x64
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .bf16 = 32 ∨ (Rect.block (s := S800000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .f32 = 32 ∨ (Rect.block (s := S800000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x64.size a ≤ S800000x64.size a
  hwx0_11 : ∀ i : grid0.Coords, EltTy.bits .f32 = 32 ∨ (Rect.block (s := S800000x64) S8000x64.size (cc0_transform_11 i) (hinb0_11 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_v7) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S8000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S192x64 : Shape := ⟨2, ![192, 64]⟩
abbrev S64 : Shape := ⟨1, ![64]⟩
abbrev S64x64 : Shape := ⟨2, ![64, 64]⟩
abbrev S_ : Shape := ⟨0, ![]⟩
abbrev S800000x1 : Shape := ⟨2, ![800000, 1]⟩
abbrev S800000x192 : Shape := ⟨2, ![800000, 192]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x192, .f32⟩
  | .hbm, ⟨29, _⟩ => ⟨S800000x64, .f32⟩
  | .hbm, ⟨30, _⟩ => ⟨S1x64, .f32⟩
  | .hbm, ⟨31, _⟩ => ⟨S800000x64, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S800000x64, .f32⟩
  | .hbm, ⟨40, _⟩ => ⟨S800000x64, .f32⟩
  | .hbm, ⟨41, _⟩ => ⟨S800000x64, .f32⟩
  | .hbm, ⟨42, _⟩ => ⟨S800000x64, .f32⟩
  | .hbm, ⟨43, _⟩ => ⟨S1x64, .f32⟩
  | .hbm, ⟨44, _⟩ => ⟨S800000x64, .f32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S800000x64, .f32⟩
  | .hbm, ⟨53, _⟩ => ⟨S800000x64, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S800000, .f32⟩
  | .hbm, ⟨58, _⟩ => ⟨S800000x1, .f32⟩
  | .hbm, ⟨59, _⟩ => ⟨S_, .f32⟩
  | .hbm, ⟨60, _⟩ => ⟨S800000x1, .f32⟩
  | .hbm, ⟨61, _⟩ => ⟨S800000x1, .f32⟩
  | .hbm, ⟨62, _⟩ => ⟨S800000x64, .f32⟩
  | .hbm, ⟨63, _⟩ => ⟨S800000x64, .f32⟩
  | .hbm, ⟨64, _⟩ => ⟨S800000x64, .f32⟩
  | .hbm, ⟨65, _⟩ => ⟨S_, .f32⟩
  | .hbm, ⟨66, _⟩ => ⟨S800000, .f32⟩
  | .hbm, ⟨67, _⟩ => ⟨S800000x1, .f32⟩
  | .hbm, ⟨68, _⟩ => ⟨S_, .f32⟩
  | .hbm, ⟨69, _⟩ => ⟨S800000x1, .f32⟩
  | .hbm, ⟨70, _⟩ => ⟨S800000x1, .f32⟩
  | .hbm, ⟨71, _⟩ => ⟨S800000x64, .f32⟩
  | .hbm, ⟨72, _⟩ => ⟨S800000x64, .f32⟩
  | .hbm, ⟨73, _⟩ => ⟨S_, .f32⟩
  | .hbm, ⟨74, _⟩ => ⟨S800000x1, .f32⟩
  | .hbm, ⟨75, _⟩ => ⟨S800000x1, .f32⟩
  | .hbm, ⟨76, _⟩ => ⟨S800000x1, .f32⟩
  | .hbm, ⟨77, _⟩ => ⟨S800000x64, .f32⟩
  | .hbm, ⟨78, _⟩ => ⟨S800000x64, .f32⟩
  | .hbm, ⟨79, _⟩ => ⟨S1x64, .f32⟩
  | .hbm, ⟨80, _⟩ => ⟨S800000x64, .f32⟩
  | .hbm, ⟨81, _⟩ => ⟨S800000x64, .f32⟩
  | .hbm, ⟨82, _⟩ => ⟨S1x64, .f32⟩
  | .hbm, ⟨83, _⟩ => ⟨S800000x64, .f32⟩
  | .hbm, ⟨84, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v24 : Ref sig .tc := ⟨.hbm, 54, rfl⟩
abbrev main_v25 : Ref sig .tc := ⟨.hbm, 55, rfl⟩
abbrev main_cst : Ref sig .tc := ⟨.hbm, 56, rfl⟩
abbrev main_v26 : Ref sig .tc := ⟨.hbm, 57, rfl⟩
abbrev main_v27 : Ref sig .tc := ⟨.hbm, 58, rfl⟩
abbrev main_cst_3 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_4 : Ref sig .tc := ⟨.hbm, 65, rfl⟩
abbrev main_v33 : Ref sig .tc := ⟨.hbm, 66, rfl⟩
abbrev main_v34 : Ref sig .tc := ⟨.hbm, 67, rfl⟩
abbrev main_cst_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_6 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  reducesTo_S800000x64_S800000_d1 : S800000x64.ReducesTo [1] S800000
  h_S_ : 0 < S_.numel
  bcast_S_S800000x1 : S_.BroadcastsInDim S800000x1 (![] : Fin 0 → Fin S800000x1.rank)
  bcast_S800000x1_S800000x64_0_1 : S800000x1.BroadcastsInDim S800000x64 (![0, 1] : Fin 2 → Fin S800000x64.rank)
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  dot_S800000x64_S64x64_S800000x64_1_0_0_1_n_n_wf : DotDims.WF S800000x64 S64x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf

class Facts : Prop extends Facts₀ where

variable [Facts]
-- ==== Proof.LibThreeParts.lean ====
/-
  Three parts laid end to end.

  `sum_split3`: a sum over `a + b + c` consecutive terms, in any commutative additive monoid, is the sum of its three
  stretches — the first `a` terms, the next `b`, the last `c`. No finiteness is involved, so on the extended reals it
  turns ONE contraction over a concatenated axis into the three contractions over its parts.

  `concat3_fst` / `concat3_snd` / `concat3_thd`: three matrices `[n, a]`, `[n, b]`, `[n, c]` concatenated along their
  columns into `[n, w]`, read at `(i, K)`: the first at `(i, k)` when `K = k`, the second when `K = a + k`, the third when
  `K = a + b + k`.
-/
import Idealize.ShloMosaic.Lib.Pipeline.Value
import Idealize.ShloMosaic.Lib.ValueIdx
import Mathlib.Algebra.BigOperators.Fin

noncomputable section

namespace Cert.ThreeParts

open Idealize.ShloMosaic Idealize.ShloMosaic.ValueIdx

/-- A sum over `a + b + c` consecutive terms is the sum of its three stretches. -/
theorem sum_split3 {M : Type*} [AddCommMonoid M] (a b c : ℕ) (f : Fin (a + b + c) → M) :
    ∑ q, f q = (∑ q : Fin a, f (Fin.castAdd c (Fin.castAdd b q))) + (∑ q : Fin b, f (Fin.castAdd c (Fin.natAdd a q)))
      + ∑ q : Fin c, f (Fin.natAdd (a + b) q) := by
  rw [Fin.sum_univ_add, Fin.sum_univ_add]

variable {α : Type} {n a b c w : ℕ}

/-- Columns `0 … a-1` of the concatenation are the first matrix. -/
theorem concat3_fst (x1 : (⟨2, ![n, a]⟩ : Shape).Idx → α) (x2 : (⟨2, ![n, b]⟩ : Shape).Idx → α) (x3 : (⟨2, ![n, c]⟩ : Shape).Idx → α)
    (h : Shape.Concatenates [(⟨2, ![n, a]⟩ : Shape), ⟨2, ![n, b]⟩, ⟨2, ![n, c]⟩] ⟨2, ![n, w]⟩ 1)
    (i : Fin n) (k : Fin a) (K : Fin w) (hK : K.val = k.val) :
    concatenate ⟨2, ![n, w]⟩ 1 [⟨⟨2, ![n, a]⟩, x1⟩, ⟨⟨2, ![n, b]⟩, x2⟩, ⟨⟨2, ![n, c]⟩, x3⟩] h (ix2 i K) = x1 (ix2 i k) := by
  refine concatenate_apply_piece (1 : Fin (⟨2, ![n, w]⟩ : Shape).rank)
    [⟨⟨2, ![n, a]⟩, x1⟩, ⟨⟨2, ![n, b]⟩, x2⟩, ⟨⟨2, ![n, c]⟩, x3⟩] h _ 0 (by show 0 < 3; omega) ⟨2, ![n, a]⟩ x1 rfl rfl 0 rfl
    (ix2 i k) (fun d hd => ?_) ?_
  · match d with
    | ⟨0, _⟩ => rfl
    | ⟨1, _⟩ => exact absurd rfl hd
  · show 0 + k.val = K.val
    omega

/-- Columns `a … a+b-1` are the second matrix. -/
theorem concat3_snd (x1 : (⟨2, ![n, a]⟩ : Shape).Idx → α) (x2 : (⟨2, ![n, b]⟩ : Shape).Idx → α) (x3 : (⟨2, ![n, c]⟩ : Shape).Idx → α)
    (h : Shape.Concatenates [(⟨2, ![n, a]⟩ : Shape), ⟨2, ![n, b]⟩, ⟨2, ![n, c]⟩] ⟨2, ![n, w]⟩ 1)
    (i : Fin n) (k : Fin b) (K : Fin w) (hK : K.val = a + k.val) :
    concatenate ⟨2, ![n, w]⟩ 1 [⟨⟨2, ![n, a]⟩, x1⟩, ⟨⟨2, ![n, b]⟩, x2⟩, ⟨⟨2, ![n, c]⟩, x3⟩] h (ix2 i K) = x2 (ix2 i k) := by
  refine concatenate_apply_piece (1 : Fin (⟨2, ![n, w]⟩ : Shape).rank)
    [⟨⟨2, ![n, a]⟩, x1⟩, ⟨⟨2, ![n, b]⟩, x2⟩, ⟨⟨2, ![n, c]⟩, x3⟩] h _ 1 (by show 1 < 3; omega) ⟨2, ![n, b]⟩ x2 rfl rfl a
    (by show a + 0 = a; rfl) (ix2 i k) (fun d hd => ?_) ?_
  · match d with
    | ⟨0, _⟩ => rfl
    | ⟨1, _⟩ => exact absurd rfl hd
  · show a + k.val = K.val
    omega

/-- Columns `a+b … a+b+c-1` are the third matrix. -/
theorem concat3_thd (x1 : (⟨2, ![n, a]⟩ : Shape).Idx → α) (x2 : (⟨2, ![n, b]⟩ : Shape).Idx → α) (x3 : (⟨2, ![n, c]⟩ : Shape).Idx → α)
    (h : Shape.Concatenates [(⟨2, ![n, a]⟩ : Shape), ⟨2, ![n, b]⟩, ⟨2, ![n, c]⟩] ⟨2, ![n, w]⟩ 1)
    (i : Fin n) (k : Fin c) (K : Fin w) (hK : K.val = a + b + k.val) :
    concatenate ⟨2, ![n, w]⟩ 1 [⟨⟨2, ![n, a]⟩, x1⟩, ⟨⟨2, ![n, b]⟩, x2⟩, ⟨⟨2, ![n, c]⟩, x3⟩] h (ix2 i K) = x3 (ix2 i k) := by
  refine concatenate_apply_piece (1 : Fin (⟨2, ![n, w]⟩ : Shape).rank)
    [⟨⟨2, ![n, a]⟩, x1⟩, ⟨⟨2, ![n, b]⟩, x2⟩, ⟨⟨2, ![n, c]⟩, x3⟩] h _ 2 (by show 2 < 3; omega) ⟨2, ![n, c]⟩ x3 rfl rfl (a + b)
    (by show a + (b + 0) = a + b; rfl) (ix2 i k) (fun d hd => ?_) ?_
  · match d with
    | ⟨0, _⟩ => rfl
    | ⟨1, _⟩ => exact absurd rfl hd
  · show a + b + k.val = K.val
    omega

end Cert.ThreeParts

end
-- ==== Proof.RowSpec.lean ====
/-
  The mathematics of one edge row, on the extended reals, with no program in sight.

  For an edge with source features `s`, destination features `d` and edge features `e` (64 numbers each) the update is
    h₁ = W₁ᵀ·[s; d; e] + b₁,   a = silu h₁,   h₂ = W₂ᵀ·a + b₂,   r = e + silu h₂,   out = LayerNorm(r)·γ + β,
  where silu x = x·σ(x), σ the logistic function, and LayerNorm centres a row by its mean, and scales it by the
  reciprocal square root of its variance plus ε (mean and variance over the 64 entries, each a sum divided by 64).

  The first layer can be written two ways: as ONE contraction of the 192-long concatenation [s; d; e] with the 192×64
  matrix W₁ (`hidCat`), or as the sum of THREE 64-long contractions with W₁'s three 64-row bands (`hid3`). A sum
  over 192 consecutive terms is the sum of its three thirds in any commutative additive monoid (`sum_fin192`), so the two
  agree (`hidCat_eq_hid3`) — no finiteness is needed: on the extended reals addition is still commutative and associative.
-/
import Idealize.ShloMosaic.PureOps.Ideal
import Idealize.ShloMosaic.PureOps.Ideal.Laws
import Mathlib.Algebra.BigOperators.Fin
import Idealize.ShloMosaic.Lib.ValueIdx
import proofs.«137404_j87522843558205_2_alg».proof.Proof.LibThreeParts

noncomputable section

namespace Cert.EdgeRow

open Idealize.ShloMosaic Idealize.ShloMosaic.ValueIdx

/-- The sigmoid-weighted unit `x · σ(x)`. -/
def silu (x : EReal) : EReal := x * Ideal.logistic x

/-- The row length 64, as the float both programs divide a row sum by. -/
def c64 : EReal := Ideal.ofBits .f32 0x42800000#32

/-- The variance offset ε (the float nearest 1e-5), the same word in both programs. -/
def eps : EReal := Ideal.ofBits .f32 0x3727C5AC#32

/-- First layer as three 64-long contractions, added left to right, then the bias. -/
def hid3 (s d e : Fin 64 → EReal) (Ws Wd We : Fin 64 → Fin 64 → EReal) (b1 : Fin 64 → EReal) (k : Fin 64) : EReal :=
  (∑ q, s q * Ws q k) + (∑ q, d q * Wd q k) + (∑ q, e q * We q k) + b1 k

/-- First layer as one 192-long contraction, then the bias. -/
def hidCat (x : Fin 192 → EReal) (W : Fin 192 → Fin 64 → EReal) (b1 : Fin 64 → EReal) (k : Fin 64) : EReal :=
  (∑ q, x q * W q k) + b1 k

/-- Second layer and the residual: `e + silu (W₂ᵀ·silu h + b₂)`. -/
def resid (h e : Fin 64 → EReal) (W2 : Fin 64 → Fin 64 → EReal) (b2 : Fin 64 → EReal) (j : Fin 64) : EReal :=
  e j + silu ((∑ k, silu (h k) * W2 k j) + b2 j)

/-- The mean of a row: its sum over 64. -/
def mean (r : Fin 64 → EReal) : EReal := Ideal.div (∑ k, r k) c64

/-- The variance of a row: the sum of the squared deviations from the mean, over 64. -/
def var (r : Fin 64 → EReal) : EReal := Ideal.div (∑ k, (r k - mean r) * (r k - mean r)) c64

/-- Layer normalization of a row with scale `g` and shift `bt`. -/
def layerNorm (r g bt : Fin 64 → EReal) (j : Fin 64) : EReal :=
  (r j - mean r) * Ideal.rsqrt (var r + eps) * g j + bt j

/-- One entry of the updated edge row, from the first layer's pre-activation `h`. -/
def rowOut (h e : Fin 64 → EReal) (W2 : Fin 64 → Fin 64 → EReal) (b2 g bt : Fin 64 → EReal) (j : Fin 64) : EReal :=
  layerNorm (resid h e W2 b2) g bt j

/-- A sum over 192 terms is the sum of its three thirds of 64. -/
theorem sum_fin192 {M : Type*} [AddCommMonoid M] (f : Fin 192 → M) :
    ∑ q, f q = (∑ q : Fin 64, f ⟨q.val, by have := q.isLt; omega⟩) + (∑ q : Fin 64, f ⟨64 + q.val, by have := q.isLt; omega⟩)
      + ∑ q : Fin 64, f ⟨128 + q.val, by have := q.isLt; omega⟩ :=
  Cert.ThreeParts.sum_split3 64 64 64 (fun q : Fin (64 + 64 + 64) => f ⟨q.val, q.isLt⟩)

/-- One contraction of the concatenated row with the whole matrix is the three contractions with its bands: when
    `x` is `s`, `d`, `e` laid end to end and `W`'s rows 0–63, 64–127, 128–191 are `Ws`, `Wd`, `We`. -/
theorem hidCat_eq_hid3 (x : Fin 192 → EReal) (W : Fin 192 → Fin 64 → EReal) (s d e : Fin 64 → EReal)
    (Ws Wd We : Fin 64 → Fin 64 → EReal) (b1 : Fin 64 → EReal)
    (hs : ∀ q : Fin 64, x ⟨q.val, by have := q.isLt; omega⟩ = s q)
    (hd : ∀ q : Fin 64, x ⟨64 + q.val, by have := q.isLt; omega⟩ = d q)
    (he : ∀ q : Fin 64, x ⟨128 + q.val, by have := q.isLt; omega⟩ = e q)
    (hWs : ∀ (q k : Fin 64), W ⟨q.val, by have := q.isLt; omega⟩ k = Ws q k)
    (hWd : ∀ (q k : Fin 64), W ⟨64 + q.val, by have := q.isLt; omega⟩ k = Wd q k)
    (hWe : ∀ (q k : Fin 64), W ⟨128 + q.val, by have := q.isLt; omega⟩ k = We q k) (k : Fin 64) :
    hidCat x W b1 k = hid3 s d e Ws Wd We b1 k := by
  unfold hidCat hid3
  rw [sum_fin192]
  simp only [hs, hd, he, hWs, hWd, hWe]

/-- The float word of 1.0 is the number 1. -/
theorem ofBits_one_f32 : Ideal.ofBits .f32 0x3F800000#32 = 1 := by
  simp [Ideal.ofBits, Ideal.ieee, -EReal.coe_mul]; norm_num

/-- The logistic function spelt with the host's negate, exponential, add and divide is the logistic function. -/
theorem silu_host (x : EReal) :
    x * Ideal.div (Ideal.ofBits .f32 0x3F800000#32) (Ideal.ofBits .f32 0x3F800000#32 + Ideal.exp (-x)) = silu x := by
  rw [ofBits_one_f32]; rfl

/-! ## The whole result array -/

/-- The row coordinate of an index of the [800000, 64] result, and its column coordinate. -/
abbrev row (i : (⟨2, ![800000, 64]⟩ : Shape).Idx) : Fin 800000 := ⟨(i 0).val, idx2_lt0 i⟩
abbrev col (i : (⟨2, ![800000, 64]⟩ : Shape).Idx) : Fin 64 := ⟨(i 1).val, idx2_lt1 i⟩

/-- The updated edge features as one function of the per-edge source, destination and edge feature arrays
    ([800000, 64] each), the three 64×64 bands of the first weight matrix, the second weight matrix and the four
    1×64 rows: entry `(e, j)` is `rowOut` of row `e` of the three feature arrays. -/
def edgeRows (src dst edge : (⟨2, ![800000, 64]⟩ : Shape).Idx → EReal) (Ws Wd We : (⟨2, ![64, 64]⟩ : Shape).Idx → EReal)
    (b1 : (⟨2, ![1, 64]⟩ : Shape).Idx → EReal) (W2 : (⟨2, ![64, 64]⟩ : Shape).Idx → EReal)
    (b2 g bt : (⟨2, ![1, 64]⟩ : Shape).Idx → EReal) : (⟨2, ![800000, 64]⟩ : Shape).Idx → EReal := fun i =>
  rowOut (hid3 (fun q => src (ix2 (row i) q)) (fun q => dst (ix2 (row i) q)) (fun q => edge (ix2 (row i) q))
      (fun q k => Ws (ix2 q k)) (fun q k => Wd (ix2 q k)) (fun q k => We (ix2 q k)) (fun k => b1 (ix2 (0 : Fin 1) k)))
    (fun q => edge (ix2 (row i) q)) (fun k j => W2 (ix2 k j)) (fun j => b2 (ix2 (0 : Fin 1) j))
    (fun j => g (ix2 (0 : Fin 1) j)) (fun j => bt (ix2 (0 : Fin 1) j)) (col i)

/-- An entry of `edgeRows` from the rows and matrices it reads, however they are named. -/
theorem edgeRows_eq (src dst edge : (⟨2, ![800000, 64]⟩ : Shape).Idx → EReal) (Ws Wd We : (⟨2, ![64, 64]⟩ : Shape).Idx → EReal)
    (b1 : (⟨2, ![1, 64]⟩ : Shape).Idx → EReal) (W2 : (⟨2, ![64, 64]⟩ : Shape).Idx → EReal)
    (b2 g bt : (⟨2, ![1, 64]⟩ : Shape).Idx → EReal) (i : (⟨2, ![800000, 64]⟩ : Shape).Idx)
    (s d e : Fin 64 → EReal) (Ws' Wd' We' : Fin 64 → Fin 64 → EReal) (b1' : Fin 64 → EReal)
    (W2' : Fin 64 → Fin 64 → EReal) (b2' g' bt' : Fin 64 → EReal) (j : Fin 64)
    (hs : ∀ q, src (ix2 (row i) q) = s q) (hd : ∀ q, dst (ix2 (row i) q) = d q) (he : ∀ q, edge (ix2 (row i) q) = e q)
    (hWs : ∀ q k, Ws (ix2 q k) = Ws' q k) (hWd : ∀ q k, Wd (ix2 q k) = Wd' q k) (hWe : ∀ q k, We (ix2 q k) = We' q k)
    (hb1 : ∀ k, b1 (ix2 (0 : Fin 1) k) = b1' k) (hW2 : ∀ k j, W2 (ix2 k j) = W2' k j)
    (hb2 : ∀ j, b2 (ix2 (0 : Fin 1) j) = b2' j) (hg : ∀ j, g (ix2 (0 : Fin 1) j) = g' j)
    (hbt : ∀ j, bt (ix2 (0 : Fin 1) j) = bt' j) (hj : col i = j) :
    edgeRows src dst edge Ws Wd We b1 W2 b2 g bt i = rowOut (hid3 s d e Ws' Wd' We' b1') e W2' b2' g' bt' j := by
  unfold edgeRows
  simp only [hs, hd, he, hWs, hWd, hWe, hb1, hW2, hb2, hg, hbt, hj]

end Cert.EdgeRow

end
-- ==== Proof.KernelBlock.lean ====
/-
  One block of the kernel's output, read entry by entry.

  At a grid point the body loads an 8000-row block of source, destination and edge features, the three 64×64 bands of
  the first weight matrix, the second weight matrix and four 1×64 rows (two biases, the layer-norm scale and shift), and
  stores one 8000×64 block. Here that stored block is read at row `r`, column `j`, at the exact (extended-real)
  values: it is `Cert.EdgeRow.rowOut` of row `r` of the three feature blocks — the first layer as three 64-long
  contractions (`hid3`), the second layer with its residual, and the layer normalization of the resulting row.
  Each matrix product into the zero accumulator is a sum over the inner coordinate (`matmul_at`), each lane reduction a
  sum over the row (`rowsum_at`), a [1,64] row stretched over the block reads at its column, and a per-row scalar
  stretched along the row reads at its row (`colcast_at`); changes of float format are the identity at these values.
-/
import proofs.«137404_j87522843558205_2_alg».proof.Proof.Gen.KernelIdeal.Value
import proofs.«137404_j87522843558205_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx
open Cert.EdgeRow

theorem lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide),
    dif_pos (show (0 : Fin S8000x64.rank) ∈ dot_S8000x64_S64x64_S8000x64_1_0_0_1_n_n.lhsNonContracting by decide)]
  rfl
theorem lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide),
    dif_pos (show (1 : Fin S64x64.rank) ∈ dot_S8000x64_S64x64_S8000x64_1_0_0_1_n_n.rhsNonContracting by decide)]
  rfl

/-- The product's left operand index at output `(r, j)` and inner coordinate `q` is `(r, q)`, the right one `(q, j)`. -/
theorem dot_lhs (r : Fin 8000) (j q : Fin 64) :
    dot_S8000x64_S64x64_S8000x64_1_0_0_1_n_n.lhsIdx (ix2 r j)
      ((contrEquiv1 dot_S8000x64_S64x64_S8000x64_1_0_0_1_n_n 64 rfl rfl).symm q) = ix2 r q := by
  have hk := contrEquiv1_symm_val dot_S8000x64_S64x64_S8000x64_1_0_0_1_n_n 64 rfl rfl q
  exact funext fun a => Fin.ext (by
    match a with
    | ⟨0, _⟩ => exact lhs_0 _ _
    | ⟨1, _⟩ => exact (lhs_1 _ _).trans hk)

theorem dot_rhs (r : Fin 8000) (j q : Fin 64) :
    dot_S8000x64_S64x64_S8000x64_1_0_0_1_n_n.rhsIdx (ix2 r j)
      ((contrEquiv1 dot_S8000x64_S64x64_S8000x64_1_0_0_1_n_n 64 rfl rfl).symm q) = ix2 q j := by
  have hk := contrEquiv1_symm_val dot_S8000x64_S64x64_S8000x64_1_0_0_1_n_n 64 rfl rfl q
  exact funext fun a => Fin.ext (by
    match a with
    | ⟨0, _⟩ => exact (rhs_0 _ _).trans hk
    | ⟨1, _⟩ => exact rhs_1 _ _)

/-- A block's matrix product into the zero accumulator, at `(r, j)`: the sum over the inner coordinate. -/
theorem matmul_at {φ₁ φ₂ : FTy} (lhs : FVec Ideal S8000x64 φ₁) (rhs : FVec Ideal S64x64 φ₂) (r : Fin 8000) (j : Fin 64) :
    matmul dot_S8000x64_S64x64_S8000x64_1_0_0_1_n_n none lhs rhs (constant (F := Ideal) S8000x64 .f32 0x00000000#32) (ix2 r j)
      = ∑ q : Fin 64, lhs (ix2 r q) * rhs (ix2 q j) := by
  simp only [matmul]
  rw [Ideal.matmul_constant_zero_apply,
    ← Equiv.sum_comp (contrEquiv1 dot_S8000x64_S64x64_S8000x64_1_0_0_1_n_n 64 rfl rfl).symm]
  refine Finset.sum_congr rfl fun q _ => ?_
  rw [dot_lhs, dot_rhs]

/-- A block's lane reduction at row `r`: the sum of the row. -/
theorem rowsum_at (v : FVec Ideal S8000x64 .f32) (hφ : FKind.Formats .f32)
    (hacc : (0x00000000#32 : BitVec 32) = 0x00000000#32) (r : Fin 8000) :
    multiReduction .add [1] S8000 v 0x00000000#32 reduces_S8000x64_S8000 hφ hacc (ix1 r) = ∑ k : Fin 64, v (ix2 r k) := by
  refine (Ideal.multiReduction_add_single v 0x00000000#32 reduces_S8000x64_S8000 hφ hacc (ix1 r)).trans ?_
  refine Finset.sum_congr rfl fun k _ => congrArg v (funext fun a => Fin.ext ?_)
  match a with
  | ⟨0, _⟩ => rfl
  | ⟨1, _⟩ => rfl

/-- A per-row value divided by a scalar, kept as a column and stretched along the row, reads at `(r, k)` as the row's
    value over the scalar. -/
theorem colcast_at (u : FVec Ideal S8000 .f32) (s : Ideal .f32) (r : Fin 8000) (k : Fin 64) :
    broadcastTo S8000x64 (divf (shapeCast S8000x1 u shapeCasts_S8000_S8000x1) (broadcast S8000x1 s)) broadcasts_S8000x1_S8000x64 (ix2 r k)
      = Ideal.div (u (ix1 r)) s := by
  refine (broadcastTo_apply _ broadcasts_S8000x1_S8000x64 (ix2 r k) (ix2 r (0 : Fin 1)) (fun a => ?_)).trans ?_
  · match a with
    | ⟨0, _⟩ => show r.val = if (8000 : Nat) = 1 then 0 else r.val; rw [if_neg (by decide)]
    | ⟨1, _⟩ => show 0 = if (1 : Nat) = 1 then 0 else k.val; rw [if_pos rfl]
  · show Ideal.div (shapeCast S8000x1 u shapeCasts_S8000_S8000x1 (ix2 r (0 : Fin 1))) s = _
    refine congrArg (Ideal.div · s) (shapeCast_apply u shapeCasts_S8000_S8000x1 (ix2 r (0 : Fin 1)) (ix1 r) ?_)
    rw [Shape.rowMajor_val_one, Shape.rowMajor_val_two]
    show r.val = r.val * 1 + 0
    omega

/-- The logistic function of a vector, entry by entry. -/
theorem logistic_at {s : Shape} {φ : FTy} (x : FVec Ideal s φ) (i : s.Idx) : logistic x i = Ideal.logistic (x i) := rfl

/-- The residual row before normalization, at `(r, j)`: the edge feature plus the second layer's activation, the
    first layer being the three band contractions of row `r` of the source, destination and edge blocks. -/
theorem pay2_at (P0 : FVec Ideal S8000x64 .f32) (P1 P2 : FVec Ideal S8000x64 .bf16) (P3 P4 P5 : FVec Ideal S64x64 .f32)
    (P6 : FVec Ideal S1x64 .f32) (P7 : FVec Ideal S64x64 .f32) (P8 : FVec Ideal S1x64 .f32) (r : Fin 8000) (j : Fin 64) :
    k0_pay2 (F := Ideal) P0 P1 P2 P3 P4 P5 P6 P7 P8 (ix2 r j)
      = resid (hid3 (fun q => P1 (ix2 r q)) (fun q => P2 (ix2 r q)) (fun q => P0 (ix2 r q))
            (fun q k => P3 (ix2 q k)) (fun q k => P4 (ix2 q k)) (fun q k => P5 (ix2 q k)) (fun k => P6 (ix2 (0 : Fin 1) k)))
          (fun q => P0 (ix2 r q)) (fun k j => P7 (ix2 k j)) (fun j => P8 (ix2 (0 : Fin 1) j)) j := by
  unfold k0_pay2
  simp only [shapeCast_self]
  simp only [addf_apply, mulf_apply, logistic_at, matmul_at, truncf_apply, broadcastTo_1b_ab_apply]
  rfl

/-- The stored block at `(r, j)`: the layer normalization of the residual row, scaled and shifted. -/
theorem out_at (x0 x1 : FVec Ideal S8000x64 .bf16) (x2 : FVec Ideal S8000x64 .f32) (x3 x4 x5 : FVec Ideal S64x64 .f32)
    (x6 : FVec Ideal S1x64 .f32) (x7 : FVec Ideal S64x64 .f32) (x8 x9 x10 : FVec Ideal S1x64 .f32) (r : Fin 8000) (j : Fin 64) :
    out0_11 (F := Ideal) x0 x1 x2 x3 x4 x5 x6 x7 x8 x9 x10 (ix2 r j)
      = rowOut (hid3 (fun q => x0 (ix2 r q)) (fun q => x1 (ix2 r q)) (fun q => x2 (ix2 r q))
            (fun q k => x3 (ix2 q k)) (fun q k => x4 (ix2 q k)) (fun q k => x5 (ix2 q k)) (fun k => x6 (ix2 (0 : Fin 1) k)))
          (fun q => x2 (ix2 r q)) (fun k j => x7 (ix2 k j)) (fun j => x8 (ix2 (0 : Fin 1) j))
          (fun j => x9 (ix2 (0 : Fin 1) j)) (fun j => x10 (ix2 (0 : Fin 1) j)) j := by
  have hz : (![0, 0] : Fin 2 → Nat) = fun _ => 0 := funext fun a => by fin_cases a <;> rfl
  unfold out0_11
  refine (Value.canon11_eq _ _ _ _ _ _ _ _ _ _ _ (ix2 r j)).trans ?_
  simp only [View.ld_unit_zero (S := S8000x64) hz, View.ld_unit_zero (S := S64x64) hz, View.ld_unit_zero (S := S1x64) hz]
  have h0 : Value.ix11_0 (ix2 r j) = ix2 r j :=
    funext fun a => Fin.ext (by match a with | ⟨0, _⟩ => rfl | ⟨1, _⟩ => rfl)
  have h1 : Value.ix11_1 (ix2 r j) = ix1 r := funext fun a => Fin.ext (by match a with | ⟨0, _⟩ => rfl)
  have h2 : Value.ix11_2 (ix2 r j) = ix1 r := funext fun a => Fin.ext (by match a with | ⟨0, _⟩ => rfl)
  have h3 : Value.ix11_3 (ix2 r j) = ix2 (0 : Fin 1) j :=
    funext fun a => Fin.ext (by match a with | ⟨0, _⟩ => rfl | ⟨1, _⟩ => rfl)
  have h4 : Value.ix11_4 (ix2 r j) = ix2 (0 : Fin 1) j :=
    funext fun a => Fin.ext (by match a with | ⟨0, _⟩ => rfl | ⟨1, _⟩ => rfl)
  dsimp only [Value.E11]
  rw [h0, h1, h2, h3, h4]
  rw [rowsum_at, rowsum_at]
  simp only [mulf_apply, subf_apply, colcast_at]
  rw [rowsum_at]
  simp only [pay2_at]
  rfl

end Cert.KernelIdeal.Block

end
-- ==== Proof.KernelArray.lean ====
/-
  From the blocks to the whole result array.

  The grid has 100 points; at point `t` the three per-edge feature windows and the output window sit on rows
  8000·t … 8000·t + 7999 of their arrays, and the eight resident windows (weight bands, second weight matrix, bias and
  layer-norm rows) on their whole arrays. So what point `t` writes back is rows 8000·t … of ONE function of the arrays
  as the region finds them (`result`: `Cert.EdgeRow.edgeRows`), the 100 blocks cover the 800000 rows, and the array
  after the run is that function.
-/
import proofs.«137404_j87522843558205_2_alg».proof.Proof.Gen.KernelIdeal.Value
import proofs.«137404_j87522843558205_2_alg».proof.Proof.KernelBlock
import proofs.«137404_j87522843558205_2_alg».proof.Proof.RowSpec
import Idealize.ShloMosaic.Lib.ValueIdx
import Idealize.ShloMosaic.Lib.Pipeline.Value

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.Pipeline (Dat)
open Cert.EdgeRow

variable (m : (ℓ : Loc nD τ sig) → Buf (Elt Ideal) ℓ) (ρ : Dev nD → PrngReg)

/-- The result array as one function of the arrays the region finds: the gathered source and destination features,
    the edge features, the three weight bands, the second weight matrix and the four rows. -/
abbrev result (c : Dev nD) : S800000x64.Idx → EReal :=
  edgeRows (V m c main_v7) (V m c main_v14) (V m c main_arg1) (V m c main_v15) (V m c main_v16) (V m c main_v17)
    (V m c main_v18) (V m c main_arg6) (V m c main_v19) (V m c main_v20) (V m c main_v21)

/-- The printed index maps, decided over the grid: the three per-edge input windows move with the output window
    along the rows, the resident windows stay at block 0, and the output's row block index is at most 99. -/
theorem idx_facts : ∀ t : Fin cfg0.N, win0_0.index t (0 : Fin 2) = win0_11.index t (0 : Fin 2)
    ∧ win0_0.index t (1 : Fin 2) = 0
    ∧ win0_1.index t (0 : Fin 2) = win0_11.index t (0 : Fin 2)
    ∧ win0_1.index t (1 : Fin 2) = 0
    ∧ win0_2.index t (0 : Fin 2) = win0_11.index t (0 : Fin 2)
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (1 : Fin 2) = 0
    ∧ win0_11.index t (0 : Fin 2) ≤ 99 :=
  (by decide +kernel : ∀ t : Fin grid0.N, _)

/-- Every row block of the output is some point's. -/
theorem idx_onto : ∀ (q0 : Fin 100), ∃ t : Fin cfg0.N, win0_11.index t = ![q0.val, 0] :=
  (by decide +kernel : ∀ (q0 : Fin 100), ∃ t : Fin grid0.N, win0_11.index t = ![q0.val, 0])

/-- Window 0's block at point `t`, read at `(r, q)`: row `8000·(block index) + r` of its array. -/
theorem read0 (c : Dev nD) (t : Fin cfg0.N) (r : Fin 8000) (q : Fin 64) (R : Fin 800000)
    (hR : R.val = win0_0.index t (0 : Fin 2) * 8000 + r.val) (h1 : win0_0.index t (1 : Fin 2) = 0) :
    iblk m c 0 t (ix2 r q) = V m c main_v7 (ix2 R q) := by
  show V m c main_v7 (((cfg0.win 0).blk t).view.emb (ix2 r q)) = _
  refine congrArg (V m c main_v7) (funext fun a => Fin.ext ?_)
  match a with
  | ⟨0, _⟩ => show win0_0.index t (0 : Fin 2) * 8000 + 1 * r.val = R.val; omega
  | ⟨1, _⟩ => show win0_0.index t (1 : Fin 2) * 64 + 1 * q.val = q.val; omega

/-- Window 1's block at point `t`, read at `(r, q)`: row `8000·(block index) + r` of its array. -/
theorem read1 (c : Dev nD) (t : Fin cfg0.N) (r : Fin 8000) (q : Fin 64) (R : Fin 800000)
    (hR : R.val = win0_1.index t (0 : Fin 2) * 8000 + r.val) (h1 : win0_1.index t (1 : Fin 2) = 0) :
    iblk m c 1 t (ix2 r q) = V m c main_v14 (ix2 R q) := by
  show V m c main_v14 (((cfg0.win 1).blk t).view.emb (ix2 r q)) = _
  refine congrArg (V m c main_v14) (funext fun a => Fin.ext ?_)
  match a with
  | ⟨0, _⟩ => show win0_1.index t (0 : Fin 2) * 8000 + 1 * r.val = R.val; omega
  | ⟨1, _⟩ => show win0_1.index t (1 : Fin 2) * 64 + 1 * q.val = q.val; omega

/-- Window 2's block at point `t`, read at `(r, q)`: row `8000·(block index) + r` of its array. -/
theorem read2 (c : Dev nD) (t : Fin cfg0.N) (r : Fin 8000) (q : Fin 64) (R : Fin 800000)
    (hR : R.val = win0_2.index t (0 : Fin 2) * 8000 + r.val) (h1 : win0_2.index t (1 : Fin 2) = 0) :
    iblk m c 2 t (ix2 r q) = V m c main_arg1 (ix2 R q) := by
  show V m c main_arg1 (((cfg0.win 2).blk t).view.emb (ix2 r q)) = _
  refine congrArg (V m c main_arg1) (funext fun a => Fin.ext ?_)
  match a with
  | ⟨0, _⟩ => show win0_2.index t (0 : Fin 2) * 8000 + 1 * r.val = R.val; omega
  | ⟨1, _⟩ => show win0_2.index t (1 : Fin 2) * 64 + 1 * q.val = q.val; omega

/-- Resident window 3's block is its whole array. -/
theorem read3 (c : Dev nD) (t : Fin cfg0.N) (q k : Fin 64)
    (h0 : win0_3.index t (0 : Fin 2) = 0) (h1 : win0_3.index t (1 : Fin 2) = 0) :
    iblk m c 3 t (ix2 q k) = V m c main_v15 (ix2 q k) := by
  show V m c main_v15 (((cfg0.win 3).blk t).view.emb (ix2 q k)) = _
  refine congrArg (V m c main_v15) (funext fun a => Fin.ext ?_)
  match a with
  | ⟨0, _⟩ => show win0_3.index t (0 : Fin 2) * 64 + 1 * q.val = q.val; omega
  | ⟨1, _⟩ => show win0_3.index t (1 : Fin 2) * 64 + 1 * k.val = k.val; omega

/-- Resident window 4's block is its whole array. -/
theorem read4 (c : Dev nD) (t : Fin cfg0.N) (q k : Fin 64)
    (h0 : win0_4.index t (0 : Fin 2) = 0) (h1 : win0_4.index t (1 : Fin 2) = 0) :
    iblk m c 4 t (ix2 q k) = V m c main_v16 (ix2 q k) := by
  show V m c main_v16 (((cfg0.win 4).blk t).view.emb (ix2 q k)) = _
  refine congrArg (V m c main_v16) (funext fun a => Fin.ext ?_)
  match a with
  | ⟨0, _⟩ => show win0_4.index t (0 : Fin 2) * 64 + 1 * q.val = q.val; omega
  | ⟨1, _⟩ => show win0_4.index t (1 : Fin 2) * 64 + 1 * k.val = k.val; omega

/-- Resident window 5's block is its whole array. -/
theorem read5 (c : Dev nD) (t : Fin cfg0.N) (q k : Fin 64)
    (h0 : win0_5.index t (0 : Fin 2) = 0) (h1 : win0_5.index t (1 : Fin 2) = 0) :
    iblk m c 5 t (ix2 q k) = V m c main_v17 (ix2 q k) := by
  show V m c main_v17 (((cfg0.win 5).blk t).view.emb (ix2 q k)) = _
  refine congrArg (V m c main_v17) (funext fun a => Fin.ext ?_)
  match a with
  | ⟨0, _⟩ => show win0_5.index t (0 : Fin 2) * 64 + 1 * q.val = q.val; omega
  | ⟨1, _⟩ => show win0_5.index t (1 : Fin 2) * 64 + 1 * k.val = k.val; omega

/-- Resident window 6's block is its whole one-row array. -/
theorem read6 (c : Dev nD) (t : Fin cfg0.N) (k : Fin 64)
    (h0 : win0_6.index t (0 : Fin 2) = 0) (h1 : win0_6.index t (1 : Fin 2) = 0) :
    iblk m c 6 t (ix2 (0 : Fin 1) k) = V m c main_v18 (ix2 (0 : Fin 1) k) := by
  show V m c main_v18 (((cfg0.win 6).blk t).view.emb (ix2 (0 : Fin 1) k)) = _
  refine congrArg (V m c main_v18) (funext fun a => Fin.ext ?_)
  match a with
  | ⟨0, _⟩ => show win0_6.index t (0 : Fin 2) * 1 + 1 * 0 = 0; omega
  | ⟨1, _⟩ => show win0_6.index t (1 : Fin 2) * 64 + 1 * k.val = k.val; omega

/-- Resident window 7's block is its whole array. -/
theorem read7 (c : Dev nD) (t : Fin cfg0.N) (q k : Fin 64)
    (h0 : win0_7.index t (0 : Fin 2) = 0) (h1 : win0_7.index t (1 : Fin 2) = 0) :
    iblk m c 7 t (ix2 q k) = V m c main_arg6 (ix2 q k) := by
  show V m c main_arg6 (((cfg0.win 7).blk t).view.emb (ix2 q k)) = _
  refine congrArg (V m c main_arg6) (funext fun a => Fin.ext ?_)
  match a with
  | ⟨0, _⟩ => show win0_7.index t (0 : Fin 2) * 64 + 1 * q.val = q.val; omega
  | ⟨1, _⟩ => show win0_7.index t (1 : Fin 2) * 64 + 1 * k.val = k.val; omega

/-- Resident window 8's block is its whole one-row array. -/
theorem read8 (c : Dev nD) (t : Fin cfg0.N) (k : Fin 64)
    (h0 : win0_8.index t (0 : Fin 2) = 0) (h1 : win0_8.index t (1 : Fin 2) = 0) :
    iblk m c 8 t (ix2 (0 : Fin 1) k) = V m c main_v19 (ix2 (0 : Fin 1) k) := by
  show V m c main_v19 (((cfg0.win 8).blk t).view.emb (ix2 (0 : Fin 1) k)) = _
  refine congrArg (V m c main_v19) (funext fun a => Fin.ext ?_)
  match a with
  | ⟨0, _⟩ => show win0_8.index t (0 : Fin 2) * 1 + 1 * 0 = 0; omega
  | ⟨1, _⟩ => show win0_8.index t (1 : Fin 2) * 64 + 1 * k.val = k.val; omega

/-- Resident window 9's block is its whole one-row array. -/
theorem read9 (c : Dev nD) (t : Fin cfg0.N) (k : Fin 64)
    (h0 : win0_9.index t (0 : Fin 2) = 0) (h1 : win0_9.index t (1 : Fin 2) = 0) :
    iblk m c 9 t (ix2 (0 : Fin 1) k) = V m c main_v20 (ix2 (0 : Fin 1) k) := by
  show V m c main_v20 (((cfg0.win 9).blk t).view.emb (ix2 (0 : Fin 1) k)) = _
  refine congrArg (V m c main_v20) (funext fun a => Fin.ext ?_)
  match a with
  | ⟨0, _⟩ => show win0_9.index t (0 : Fin 2) * 1 + 1 * 0 = 0; omega
  | ⟨1, _⟩ => show win0_9.index t (1 : Fin 2) * 64 + 1 * k.val = k.val; omega

/-- Resident window 10's block is its whole one-row array. -/
theorem read10 (c : Dev nD) (t : Fin cfg0.N) (k : Fin 64)
    (h0 : win0_10.index t (0 : Fin 2) = 0) (h1 : win0_10.index t (1 : Fin 2) = 0) :
    iblk m c 10 t (ix2 (0 : Fin 1) k) = V m c main_v21 (ix2 (0 : Fin 1) k) := by
  show V m c main_v21 (((cfg0.win 10).blk t).view.emb (ix2 (0 : Fin 1) k)) = _
  refine congrArg (V m c main_v21) (funext fun a => Fin.ext ?_)
  match a with
  | ⟨0, _⟩ => show win0_10.index t (0 : Fin 2) * 1 + 1 * 0 = 0; omega
  | ⟨1, _⟩ => show win0_10.index t (1 : Fin 2) * 64 + 1 * k.val = k.val; omega

/-- What point `t` writes back is block `t` of `result`. -/
theorem flushed_eq (c : Dev nD) (t : Fin cfg0.N) :
    (dats m 0 c).flushed 11 t = ((cfg0.win 11).blk t).view.read (Elt Ideal) (result m c) := by
  rw [Value.flushed11]
  obtain ⟨e0a, e0b, e1a, e1b, e2a, e2b, e3a, e3b, e4a, e4b, e5a, e5b, e6a, e6b, e7a, e7b, e8a, e8b, e9a, e9b, e10a, e10b, eob, eoa⟩ := idx_facts t
  refine funext fun (y : S8000x64.Idx) => ?_
  obtain ⟨r, j, rfl⟩ : ∃ (r : Fin 8000) (j : Fin 64), y = ix2 r j := ⟨y 0, y 1, eq_ix2 y⟩
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r j)
    = result m c (((cfg0.win 11).blk t).view.emb (ix2 r j))
  refine (Block.out_at _ _ _ _ _ _ _ _ _ _ _ r j).trans (Eq.symm ?_)
  have hR : (row (((cfg0.win 11).blk t).view.emb (ix2 r j))).val = win0_11.index t (0 : Fin 2) * 8000 + r.val := by
    show win0_11.index t (0 : Fin 2) * 8000 + 1 * r.val = _
    omega
  have hC : col (((cfg0.win 11).blk t).view.emb (ix2 r j)) = j := by
    refine Fin.ext ?_
    show win0_11.index t (1 : Fin 2) * 64 + 1 * j.val = j.val
    omega
  exact edgeRows_eq _ _ _ _ _ _ _ _ _ _ _ _ _ _ _ _ _ _ _ _ _ _ _ _
    (fun q => (read0 m c t r q _ (by rw [hR, e0a]) e0b).symm)
    (fun q => (read1 m c t r q _ (by rw [hR, e1a]) e1b).symm)
    (fun q => (read2 m c t r q _ (by rw [hR, e2a]) e2b).symm)
    (fun q k => (read3 m c t q k e3a e3b).symm) (fun q k => (read4 m c t q k e4a e4b).symm)
    (fun q k => (read5 m c t q k e5a e5b).symm) (fun k => (read6 m c t k e6a e6b).symm)
    (fun q k => (read7 m c t q k e7a e7b).symm) (fun k => (read8 m c t k e8a e8b).symm)
    (fun k => (read9 m c t k e9a e9b).symm) (fun k => (read10 m c t k e10a e10b).symm) hC

/-- An index of the result is in point `t`'s block iff each coordinate is in the block's range on its axis. -/
theorem mem_blk (t : Fin cfg0.N) (i : S800000x64.Idx) :
    i ∈ ((cfg0.win 11).blk t).view.set ↔ ∀ a : Fin 2, win0_11.index t a * S8000x64.size a ≤ (i a).val ∧ (i a).val < win0_11.index t a * S8000x64.size a + S8000x64.size a := by
  show i ∈ ((View.whole main_v22).slice (win0_11.rect t)).set ↔ _
  rw [View.set_slice_whole, Rect.mem_set_unit]
  exact Iff.rfl

/-- The 100 row blocks cover the result: row `e` is in the block of point `e / 8000`. -/
theorem cover (i : S800000x64.Idx) : ∃ t : Fin cfg0.N, (cfg0.win 11).flush t = true ∧ i ∈ ((cfg0.win 11).blk t).view.set := by
  have hi0 : (i 0).val < 800000 := (i 0).isLt
  have hi1 : (i 1).val < 64 := (i 1).isLt
  obtain ⟨t, ht⟩ := idx_onto ⟨(i 0).val / 8000, by omega⟩
  have q0 : win0_11.index t (0 : Fin 2) = (i 0).val / 8000 := congrFun ht 0
  have q1 : win0_11.index t (1 : Fin 2) = 0 := congrFun ht 1
  refine ⟨t, flush0_11 t, ?_⟩
  rw [mem_blk]
  intro a
  match a with
  | ⟨0, _⟩ => show win0_11.index t (0 : Fin 2) * 8000 ≤ (i 0).val ∧ (i 0).val < win0_11.index t (0 : Fin 2) * 8000 + 8000; omega
  | ⟨1, _⟩ => show win0_11.index t (1 : Fin 2) * 64 ≤ (i 1).val ∧ (i 1).val < win0_11.index t (1 : Fin 2) * 64 + 64; omega

/-- The result array after the run. -/
theorem final (c : Dev nD) : (dats m 0 c).arrAt 11 cfg0.N = result m c :=
  (dats m 0 c).arrAt_eq_of_cover 11 (result m c) (fun t _ => flushed_eq m c t) cover

end Cert.KernelIdeal.Whole

end
-- ==== Proof.KernelHost.lean ====
/-
  What the region finds in its windows' arrays, in terms of the arguments.

  Before the one region @main prepares, from the arguments: the node table in the narrow float format (the same
  numbers, at the exact values), the source and destination index columns with negative indices wrapped by the table's
  length 50000, the two gathers of node rows at those indices, the three 64-row bands of the first weight matrix
  (rows 0–63, 64–127, 128–191), and the two biases and the layer-norm scale and shift recast from [64] to [1, 64].
  Here each of those arrays is read as that term, and the small ones entry by entry.
-/
import proofs.«137404_j87522843558205_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- An index vector with its negative entries wrapped by the table's length, kept as a column. -/
def wrapIdx (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The gathered source rows. -/
theorem V_v7 (c : Dev nD) : (V m c main_v7 : S800000x64.Idx → EReal)
    = Host.gather gather_S50000x64_S800000x1_S800000x64_1_0_n_n_0_1_164
        (truncf (F := Ideal) .bf16 (m ((c : Thread nD τ).loc main_arg0)) bitsLt_bf16_f32)
        (wrapIdx (m ((c : Thread nD τ).loc main_arg2))) := by
  dsimp only [V, hostOps0]; after_results; rfl

/-- The gathered destination rows. -/
theorem V_v14 (c : Dev nD) : (V m c main_v14 : S800000x64.Idx → EReal)
    = Host.gather gather_S50000x64_S800000x1_S800000x64_1_0_n_n_0_1_164
        (truncf (F := Ideal) .bf16 (m ((c : Thread nD τ).loc main_arg0)) bitsLt_bf16_f32)
        (wrapIdx (m ((c : Thread nD τ).loc main_arg3))) := by
  dsimp only [V, hostOps0]; after_results; rfl

/-- The first band of the first weight matrix: its rows 0–63. -/
theorem V_v15_at (c : Dev nD) (q k : Fin 64) :
    (V m c main_v15 : S64x64.Idx → EReal) (ix2 q k) = m ((c : Thread nD τ).loc main_arg4) (ix2 (⟨q.val, by have := q.isLt; omega⟩ : Fin 192) k) := by
  have e : (V m c main_v15 : S64x64.Idx → EReal) = extractStridedSlice S64x64 ![0, 0] (m ((c : Thread nD τ).loc main_arg4)) slices_S192x64_S64x64_0_0 := by
    dsimp only [V, hostOps0]; after_results
  rw [e]
  exact slice2_axis0_apply 0 _ slices_S192x64_S64x64_0_0 q k _ (by show q.val = 0 + q.val; omega)

/-- The second band: rows 64–127. -/
theorem V_v16_at (c : Dev nD) (q k : Fin 64) :
    (V m c main_v16 : S64x64.Idx → EReal) (ix2 q k) = m ((c : Thread nD τ).loc main_arg4) (ix2 (⟨64 + q.val, by have := q.isLt; omega⟩ : Fin 192) k) := by
  have e : (V m c main_v16 : S64x64.Idx → EReal) = extractStridedSlice S64x64 ![64, 0] (m ((c : Thread nD τ).loc main_arg4)) slices_S192x64_S64x64_64_0 := by
    dsimp only [V, hostOps0]; after_results
  rw [e]
  exact slice2_axis0_apply 64 _ slices_S192x64_S64x64_64_0 q k _ rfl

/-- The third band: rows 128–191. -/
theorem V_v17_at (c : Dev nD) (q k : Fin 64) :
    (V m c main_v17 : S64x64.Idx → EReal) (ix2 q k) = m ((c : Thread nD τ).loc main_arg4) (ix2 (⟨128 + q.val, by have := q.isLt; omega⟩ : Fin 192) k) := by
  have e : (V m c main_v17 : S64x64.Idx → EReal) = extractStridedSlice S64x64 ![128, 0] (m ((c : Thread nD τ).loc main_arg4)) slices_S192x64_S64x64_128_0 := by
    dsimp only [V, hostOps0]; after_results
  rw [e]
  exact slice2_axis0_apply 128 _ slices_S192x64_S64x64_128_0 q k _ rfl

/-- The first bias as a row. -/
theorem V_v18_at (c : Dev nD) (k : Fin 64) :
    (V m c main_v18 : S1x64.Idx → EReal) (ix2 (0 : Fin 1) k) = m ((c : Thread nD τ).loc main_arg5) (ix1 k) := by
  have e : (V m c main_v18 : S1x64.Idx → EReal) = shapeCast S1x64 (m ((c : Thread nD τ).loc main_arg5)) shapeCasts_S64_S1x64 := by
    dsimp only [V, hostOps0]; after_results; rfl
  rw [e]
  exact shapeCast_a_1a_apply _ shapeCasts_S64_S1x64 0 k

/-- The second bias as a row. -/
theorem V_v19_at (c : Dev nD) (k : Fin 64) :
    (V m c main_v19 : S1x64.Idx → EReal) (ix2 (0 : Fin 1) k) = m ((c : Thread nD τ).loc main_arg7) (ix1 k) := by
  have e : (V m c main_v19 : S1x64.Idx → EReal) = shapeCast S1x64 (m ((c : Thread nD τ).loc main_arg7)) shapeCasts_S64_S1x64 := by
    dsimp only [V, hostOps0]; after_results; rfl
  rw [e]
  exact shapeCast_a_1a_apply _ shapeCasts_S64_S1x64 0 k

/-- The layer-norm scale as a row. -/
theorem V_v20_at (c : Dev nD) (k : Fin 64) :
    (V m c main_v20 : S1x64.Idx → EReal) (ix2 (0 : Fin 1) k) = m ((c : Thread nD τ).loc main_arg8) (ix1 k) := by
  have e : (V m c main_v20 : S1x64.Idx → EReal) = shapeCast S1x64 (m ((c : Thread nD τ).loc main_arg8)) shapeCasts_S64_S1x64 := by
    dsimp only [V, hostOps0]; after_results; rfl
  rw [e]
  exact shapeCast_a_1a_apply _ shapeCasts_S64_S1x64 0 k

/-- The layer-norm shift as a row. -/
theorem V_v21_at (c : Dev nD) (k : Fin 64) :
    (V m c main_v21 : S1x64.Idx → EReal) (ix2 (0 : Fin 1) k) = m ((c : Thread nD τ).loc main_arg9) (ix1 k) := by
  have e : (V m c main_v21 : S1x64.Idx → EReal) = shapeCast S1x64 (m ((c : Thread nD τ).loc main_arg9)) shapeCasts_S64_S1x64 := by
    dsimp only [V, hostOps0]; after_results; rfl
  rw [e]
  exact shapeCast_a_1a_apply _ shapeCasts_S64_S1x64 0 k

end Cert.KernelIdeal.HostSide

end
-- ==== Proof.RefRead.lean ====
/-
  The reference, read row by row.

  The reference gathers the source and destination node rows, lays them and the edge row end to end (192 numbers),
  contracts with the whole first weight matrix and adds the bias; applies x·σ(x) with σ spelt by negate, exponential,
  add and divide; contracts with the second weight matrix, adds its bias, applies x·σ(x) again; adds the edge row; and
  layer-normalizes: the row's mean (its sum from 0, over 64), the deviations, their squares' mean, the reciprocal square
  root of that plus ε, times the scale plus the shift. Read at entry `(e, j)` this is `Cert.EdgeRow.rowOut` of the
  first layer written as ONE 192-long contraction (`hidCat`) of row `e` of the concatenation.
-/
import proofs.«137404_j87522843558205_2_alg».proof.Proof.Gen.ReferenceIdeal.Read
import proofs.«137404_j87522843558205_2_alg».proof.Proof.RowSpec
import Idealize.ShloMosaic.Lib.ValueIdx
import Idealize.ShloMosaic.Lib.Pipeline.Value
import Idealize.ShloMosaic.PureOps.Ideal.Laws

noncomputable section

namespace Cert.ReferenceIdeal.RowRead

open Cert.ReferenceIdeal Cert.ReferenceIdeal.Gen Cert.ReferenceIdeal.Read Idealize.ShloMosaic Idealize.ShloMosaic.TcCoe Idealize.ShloMosaic.ValueIdx
open Cert.EdgeRow

variable (x0 : (⟨S50000x64, .f32⟩ : BufTy).Contents (Elt Ideal)) (x1 : (⟨S800000x64, .f32⟩ : BufTy).Contents (Elt Ideal))
  (x2 x3 : (⟨S800000, .i32⟩ : BufTy).Contents (Elt Ideal)) (x4 : (⟨S192x64, .f32⟩ : BufTy).Contents (Elt Ideal))
  (x5 : (⟨S64, .f32⟩ : BufTy).Contents (Elt Ideal)) (x6 : (⟨S64x64, .f32⟩ : BufTy).Contents (Elt Ideal))
  (x7 x8 x9 : (⟨S64, .f32⟩ : BufTy).Contents (Elt Ideal))

/-- The first layer's pre-activation at `(e, k)`: one contraction of row `e` of the concatenation with column `k` of
    the first weight matrix, plus the bias. -/
theorem v18_at (e : Fin 800000) (k : Fin 64) :
    val_main_v18 (F := Ideal) x0 x1 x2 x3 x4 x5 (ix2 e k)
      = hidCat (fun q => val_main_v14 (F := Ideal) x0 x1 x2 x3 (ix2 e q)) (fun q k => x4 (ix2 q k)) (fun k => x5 (ix1 k)) k := by
  rw [val_main_v18_apply, val_main_v15_apply, val_main_v17_apply, val_main_v16_apply]
  have hl : ∀ q : Fin 192, lidx_main_v15 (ix2 e k) q = ix2 e q := fun q => funext fun a => Fin.ext (by match a with | ⟨0, _⟩ => rfl | ⟨1, _⟩ => rfl)
  have hr : ∀ q : Fin 192, ridx_main_v15 (ix2 e k) q = ix2 q k := fun q => funext fun a => Fin.ext (by match a with | ⟨0, _⟩ => rfl | ⟨1, _⟩ => rfl)
  have hb : idx_main_v16 (idx_main_v17 (ix2 e k)) = ix1 k := funext fun a => Fin.ext (by match a with | ⟨0, _⟩ => rfl)
  simp only [hl, hr, hb]
  rfl

/-- The first activation: x·σ(x) of the pre-activation. -/
theorem v19_at (i : S800000x64.Idx) :
    val_main_v19 (F := Ideal) x0 x1 x2 x3 x4 x5 i = silu (val_main_v18 (F := Ideal) x0 x1 x2 x3 x4 x5 i) := by
  rw [val_main_v19_apply, val_main_call0_v5_apply, val_main_call0_v4_apply, val_main_call0_cst_0_apply,
    val_main_call0_v3_apply, val_main_call0_v2_apply, val_main_call0_cst_apply, val_main_call0_v1_apply,
    val_main_call0_v0_apply]
  exact silu_host _

/-- The second layer's pre-activation at `(e, j)`. -/
theorem v23_at (e : Fin 800000) (j : Fin 64) :
    val_main_v23 (F := Ideal) x0 x1 x2 x3 x4 x5 x6 x7 (ix2 e j)
      = (∑ k : Fin 64, silu (val_main_v18 (F := Ideal) x0 x1 x2 x3 x4 x5 (ix2 e k)) * x6 (ix2 k j)) + x7 (ix1 j) := by
  rw [val_main_v23_apply, val_main_v20_apply, val_main_v22_apply, val_main_v21_apply]
  have hl : ∀ q : Fin 64, lidx_main_v20 (ix2 e j) q = ix2 e q := fun q => funext fun a => Fin.ext (by match a with | ⟨0, _⟩ => rfl | ⟨1, _⟩ => rfl)
  have hr : ∀ q : Fin 64, ridx_main_v20 (ix2 e j) q = ix2 q j := fun q => funext fun a => Fin.ext (by match a with | ⟨0, _⟩ => rfl | ⟨1, _⟩ => rfl)
  have hb : idx_main_v21 (idx_main_v22 (ix2 e j)) = ix1 j := funext fun a => Fin.ext (by match a with | ⟨0, _⟩ => rfl)
  simp only [hl, hr, hb, v19_at]
  rfl

/-- The second activation. -/
theorem v24_at (i : S800000x64.Idx) :
    val_main_v24 (F := Ideal) x0 x1 x2 x3 x4 x5 x6 x7 i = silu (val_main_v23 (F := Ideal) x0 x1 x2 x3 x4 x5 x6 x7 i) := by
  rw [val_main_v24_apply, val_main_call1_v5_apply, val_main_call1_v4_apply, val_main_call1_cst_0_apply,
    val_main_call1_v3_apply, val_main_call1_v2_apply, val_main_call1_cst_apply, val_main_call1_v1_apply,
    val_main_call1_v0_apply]
  exact silu_host _

/-- The residual row at `(e, j)`. -/
theorem v25_at (e : Fin 800000) (j : Fin 64) :
    val_main_v25 (F := Ideal) x0 x1 x2 x3 x4 x5 x6 x7 (ix2 e j)
      = resid (fun k => val_main_v18 (F := Ideal) x0 x1 x2 x3 x4 x5 (ix2 e k)) (fun q => x1 (ix2 e q)) (fun k j => x6 (ix2 k j))
          (fun j => x7 (ix1 j)) j := by
  rw [val_main_v25_apply, v24_at, v23_at]
  rfl

/-- The row's mean, kept as a column. -/
theorem v29_at (e : Fin 800000) (u : Fin 1) :
    val_main_v29 (F := Ideal) x0 x1 x2 x3 x4 x5 x6 x7 (ix2 e u) = mean (fun k => val_main_v25 (F := Ideal) x0 x1 x2 x3 x4 x5 x6 x7 (ix2 e k)) := by
  rw [val_main_v29_apply, val_main_v27_apply, val_main_v26_apply, val_main_v28_apply, val_main_cst_3_apply, val_main_cst_apply]
  have h : ∀ k : Fin 64, idx_main_v26 (idx_main_v27 (ix2 e u)) k = ix2 e k := fun k => funext fun a => Fin.ext (by match a with | ⟨0, _⟩ => rfl | ⟨1, _⟩ => rfl)
  simp only [h]
  show Ideal.div (Ideal.ofBits .f32 0x00000000#32 + _) _ = _
  rw [Ideal.ofBits_zero_f32, zero_add]
  rfl

/-- The deviation from the mean at `(e, k)` (computed twice by the reference, to the same value). -/
theorem v31_at (e : Fin 800000) (k : Fin 64) :
    val_main_v31 (F := Ideal) x0 x1 x2 x3 x4 x5 x6 x7 (ix2 e k)
      = val_main_v25 (F := Ideal) x0 x1 x2 x3 x4 x5 x6 x7 (ix2 e k) - mean (fun k => val_main_v25 (F := Ideal) x0 x1 x2 x3 x4 x5 x6 x7 (ix2 e k)) := by
  rw [val_main_v31_apply, val_main_v30_apply]
  have h : idx_main_v30 (ix2 e k) = ix2 e (0 : Fin 1) := funext fun a => Fin.ext (by match a with | ⟨0, _⟩ => rfl | ⟨1, _⟩ => rfl)
  rw [h, v29_at]
  rfl

theorem v38_at (e : Fin 800000) (k : Fin 64) :
    val_main_v38 (F := Ideal) x0 x1 x2 x3 x4 x5 x6 x7 (ix2 e k)
      = val_main_v25 (F := Ideal) x0 x1 x2 x3 x4 x5 x6 x7 (ix2 e k) - mean (fun k => val_main_v25 (F := Ideal) x0 x1 x2 x3 x4 x5 x6 x7 (ix2 e k)) := by
  rw [val_main_v38_apply, val_main_v37_apply]
  have h : idx_main_v37 (ix2 e k) = ix2 e (0 : Fin 1) := funext fun a => Fin.ext (by match a with | ⟨0, _⟩ => rfl | ⟨1, _⟩ => rfl)
  rw [h, v29_at]
  rfl

/-- The row's variance, kept as a column. -/
theorem v36_at (e : Fin 800000) (u : Fin 1) :
    val_main_v36 (F := Ideal) x0 x1 x2 x3 x4 x5 x6 x7 (ix2 e u) = var (fun k => val_main_v25 (F := Ideal) x0 x1 x2 x3 x4 x5 x6 x7 (ix2 e k)) := by
  rw [val_main_v36_apply, val_main_v34_apply, val_main_v33_apply, val_main_v35_apply, val_main_cst_5_apply, val_main_cst_4_apply]
  have h : ∀ k : Fin 64, idx_main_v33 (idx_main_v34 (ix2 e u)) k = ix2 e k := fun k => funext fun a => Fin.ext (by match a with | ⟨0, _⟩ => rfl | ⟨1, _⟩ => rfl)
  simp only [h, val_main_v32_apply, v31_at]
  show Ideal.div (Ideal.ofBits .f32 0x00000000#32 + _) _ = _
  rw [Ideal.ofBits_zero_f32, zero_add]
  rfl

/-- The reference's result at `(e, j)`. -/
theorem out_at (e : Fin 800000) (j : Fin 64) :
    val_main_v49 (F := Ideal) x0 x1 x2 x3 x4 x5 x6 x7 x8 x9 (ix2 e j)
      = rowOut (hidCat (fun q => val_main_v14 (F := Ideal) x0 x1 x2 x3 (ix2 e q)) (fun q k => x4 (ix2 q k)) (fun k => x5 (ix1 k)))
          (fun q => x1 (ix2 e q)) (fun k j => x6 (ix2 k j)) (fun j => x7 (ix1 j)) (fun j => x8 (ix1 j)) (fun j => x9 (ix1 j)) j := by
  rw [val_main_v49_apply, val_main_v46_apply, val_main_v43_apply, v38_at, val_main_v42_apply, val_main_v41_apply,
    val_main_v40_apply, val_main_v39_apply, val_main_cst_6_apply, val_main_v45_apply, val_main_v44_apply,
    val_main_v48_apply, val_main_v47_apply]
  have h42 : idx_main_v42 (ix2 e j) = ix2 e (0 : Fin 1) := funext fun a => Fin.ext (by match a with | ⟨0, _⟩ => rfl | ⟨1, _⟩ => rfl)
  have h45 : idx_main_v44 (idx_main_v45 (ix2 e j)) = ix1 j := funext fun a => Fin.ext (by match a with | ⟨0, _⟩ => rfl)
  have h48 : idx_main_v47 (idx_main_v48 (ix2 e j)) = ix1 j := funext fun a => Fin.ext (by match a with | ⟨0, _⟩ => rfl)
  rw [h42, h45, h48, v36_at]
  have hrow : (fun k => val_main_v25 (F := Ideal) x0 x1 x2 x3 x4 x5 x6 x7 (ix2 e k))
      = resid (hidCat (fun q => val_main_v14 (F := Ideal) x0 x1 x2 x3 (ix2 e q)) (fun q k => x4 (ix2 q k)) (fun k => x5 (ix1 k)))
          (fun q => x1 (ix2 e q)) (fun k j => x6 (ix2 k j)) (fun j => x7 (ix1 j)) := by
    funext k
    rw [v25_at]
    exact congrArg (fun h => resid h (fun q => x1 (ix2 e q)) (fun k j => x6 (ix2 k j)) (fun j => x7 (ix1 j)) k)
      (funext fun q => v18_at x0 x1 x2 x3 x4 x5 e q)
  have hj : val_main_v25 (F := Ideal) x0 x1 x2 x3 x4 x5 x6 x7 (ix2 e j)
      = resid (hidCat (fun q => val_main_v14 (F := Ideal) x0 x1 x2 x3 (ix2 e q)) (fun q k => x4 (ix2 q k)) (fun k => x5 (ix1 k)))
          (fun q => x1 (ix2 e q)) (fun k j => x6 (ix2 k j)) (fun j => x7 (ix1 j)) j := congrFun hrow j
  rw [hj, hrow]
  rfl

end Cert.ReferenceIdeal.RowRead

end
-- ==== Proof.RefCat.lean ====
/-
  The reference's concatenated row, third by third: columns 0–63 of the [800000, 192] concatenation are the gathered
  source rows, columns 64–127 the gathered destination rows, columns 128–191 the edge features.
-/
import proofs.«137404_j87522843558205_2_alg».proof.Proof.Gen.ReferenceIdeal.Read
import Idealize.ShloMosaic.Lib.ValueIdx
import Idealize.ShloMosaic.Lib.Pipeline.Value
import proofs.«137404_j87522843558205_2_alg».proof.Proof.LibThreeParts

noncomputable section

namespace Cert.ReferenceIdeal.CatRead

open Cert.ReferenceIdeal Cert.ReferenceIdeal.Gen Cert.ReferenceIdeal.Read Idealize.ShloMosaic Idealize.ShloMosaic.TcCoe Idealize.ShloMosaic.ValueIdx

variable (x0 : (⟨S50000x64, .f32⟩ : BufTy).Contents (Elt Ideal)) (x1 : (⟨S800000x64, .f32⟩ : BufTy).Contents (Elt Ideal))
  (x2 x3 : (⟨S800000, .i32⟩ : BufTy).Contents (Elt Ideal))

/-- The first third of the concatenated row is the gathered source row. -/
theorem cat_src (e : Fin 800000) (q : Fin 64) :
    val_main_v14 (F := Ideal) x0 x1 x2 x3 (ix2 e (⟨q.val, by have := q.isLt; omega⟩ : Fin 192)) = val_main_v6 (F := Ideal) x0 x2 (ix2 e q) := by
  unfold val_main_v14
  exact Cert.ThreeParts.concat3_fst _ _ _ concatenates_S800000x64_S800000x64_S800000x64_S800000x192_d1 e q _ rfl

/-- The second third is the gathered destination row. -/
theorem cat_dst (e : Fin 800000) (q : Fin 64) :
    val_main_v14 (F := Ideal) x0 x1 x2 x3 (ix2 e (⟨64 + q.val, by have := q.isLt; omega⟩ : Fin 192)) = val_main_v13 (F := Ideal) x0 x3 (ix2 e q) := by
  unfold val_main_v14
  exact Cert.ThreeParts.concat3_snd _ _ _ concatenates_S800000x64_S800000x64_S800000x64_S800000x192_d1 e q _ rfl

/-- The last third is the edge row. -/
theorem cat_edge (e : Fin 800000) (q : Fin 64) :
    val_main_v14 (F := Ideal) x0 x1 x2 x3 (ix2 e (⟨128 + q.val, by have := q.isLt; omega⟩ : Fin 192)) = x1 (ix2 e q) := by
  unfold val_main_v14
  exact Cert.ThreeParts.concat3_thd _ _ _ concatenates_S800000x64_S800000x64_S800000x64_S800000x192_d1 e q _ rfl

end Cert.ReferenceIdeal.CatRead

end
-- ==== Proof.Bridge.lean ====
/-
  The two results are one function of the arguments.

  The kernel's result array is `edgeRows` of the arrays its region finds (the first layer as three band contractions);
  the reference's result at `(e, j)` is `rowOut` of the first layer as one contraction of the concatenated row. The
  gathered rows are the same on both sides (the same gather of the same table — the narrow float format changes nothing
  at the exact values — at the same wrapped indices), the concatenated row's thirds are the gathered source row, the
  gathered destination row and the edge row, the kernel's three weight bands are the matrix's rows 0–63, 64–127 and
  128–191, and its four [1, 64] rows are the reference's [64] vectors. So the sum over 192 terms splits into the three
  sums over 64 (`Cert.EdgeRow.hidCat_eq_hid3`), and everything after the first layer is the same expression.
-/
import proofs.«137404_j87522843558205_2_alg».proof.Proof.KernelArray
import proofs.«137404_j87522843558205_2_alg».proof.Proof.KernelHost
import proofs.«137404_j87522843558205_2_alg».proof.Proof.RefRead
import proofs.«137404_j87522843558205_2_alg».proof.Proof.RefCat
import proofs.«137404_j87522843558205_2_alg».proof.Proof.RowSpec

noncomputable section

namespace Cert.Proof.Bridge

open Idealize.ShloMosaic Idealize.ShloMosaic.TcCoe Idealize.ShloMosaic.ValueIdx Idealize.SL.Sem
open Cert.EdgeRow

/-- The kernel's gather of the narrowed table at the wrapped indices is the reference's gather of the table. -/
theorem gather_eq (X0 : (⟨2, ![50000, 64]⟩ : Shape).Idx → EReal) (X2 : IVec ⟨1, ![800000]⟩ 32) :
    Host.gather Cert.KernelIdeal.gather_S50000x64_S800000x1_S800000x64_1_0_n_n_0_1_164
        (truncf (F := Ideal) .bf16 X0 Cert.KernelIdeal.Gen.bitsLt_bf16_f32) (Cert.KernelIdeal.HostSide.wrapIdx X2)
      = Cert.ReferenceIdeal.Read.val_main_v6 (F := Ideal) X0 X2 := rfl

theorem gather_eq' (X0 : (⟨2, ![50000, 64]⟩ : Shape).Idx → EReal) (X3 : IVec ⟨1, ![800000]⟩ 32) :
    Host.gather Cert.KernelIdeal.gather_S50000x64_S800000x1_S800000x64_1_0_n_n_0_1_164
        (truncf (F := Ideal) .bf16 X0 Cert.KernelIdeal.Gen.bitsLt_bf16_f32) (Cert.KernelIdeal.HostSide.wrapIdx X3)
      = Cert.ReferenceIdeal.Read.val_main_v13 (F := Ideal) X0 X3 := rfl

/-- Two first-layer rows that agree entry by entry give the same output entry. -/
theorem rowOut_congr (h h' e : Fin 64 → EReal) (W2 : Fin 64 → Fin 64 → EReal) (b2 g bt : Fin 64 → EReal) (j : Fin 64)
    (hh : ∀ k, h k = h' k) : rowOut h e W2 b2 g bt j = rowOut h' e W2 b2 g bt j := by
  rw [show h = h' from funext hh]

variable (m : (ℓ : Loc Cert.KernelIdeal.nD Cert.KernelIdeal.τ Cert.KernelIdeal.sig) → Buf (Elt Ideal) ℓ)

/-- The reference's result term, of the kernel's argument arrays, is the kernel's result array. -/
theorem result_eq (c : Dev Cert.KernelIdeal.nD) :
    Cert.ReferenceIdeal.Read.val_main_v49 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      = Cert.KernelIdeal.Whole.result m c := by
  refine funext fun (i : (⟨2, ![800000, 64]⟩ : Shape).Idx) => ?_
  obtain ⟨e, j, rfl⟩ : ∃ (e : Fin 800000) (j : Fin 64), i = ix2 e j := ⟨i 0, i 1, eq_ix2 i⟩
  rw [Cert.ReferenceIdeal.RowRead.out_at]
  symm
  refine (edgeRows_eq _ _ _ _ _ _ _ _ _ _ _ (ix2 e j)
    (fun q => Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (ix2 e q))
    (fun q => Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (ix2 e q))
    (fun q => (m ((c.tc : Thread Cert.KernelIdeal.nD Cert.KernelIdeal.τ).loc Cert.KernelIdeal.main_arg1)) (ix2 e q))
    (fun q k => (m ((c.tc : Thread Cert.KernelIdeal.nD Cert.KernelIdeal.τ).loc Cert.KernelIdeal.main_arg4)) (ix2 (⟨q.val, by have := q.isLt; omega⟩ : Fin 192) k))
    (fun q k => (m ((c.tc : Thread Cert.KernelIdeal.nD Cert.KernelIdeal.τ).loc Cert.KernelIdeal.main_arg4)) (ix2 (⟨64 + q.val, by have := q.isLt; omega⟩ : Fin 192) k))
    (fun q k => (m ((c.tc : Thread Cert.KernelIdeal.nD Cert.KernelIdeal.τ).loc Cert.KernelIdeal.main_arg4)) (ix2 (⟨128 + q.val, by have := q.isLt; omega⟩ : Fin 192) k))
    (fun k => (m ((c.tc : Thread Cert.KernelIdeal.nD Cert.KernelIdeal.τ).loc Cert.KernelIdeal.main_arg5)) (ix1 k)) (fun k j => (m ((c.tc : Thread Cert.KernelIdeal.nD Cert.KernelIdeal.τ).loc Cert.KernelIdeal.main_arg6)) (ix2 k j)) (fun j => (m ((c.tc : Thread Cert.KernelIdeal.nD Cert.KernelIdeal.τ).loc Cert.KernelIdeal.main_arg7)) (ix1 j))
    (fun j => (m ((c.tc : Thread Cert.KernelIdeal.nD Cert.KernelIdeal.τ).loc Cert.KernelIdeal.main_arg8)) (ix1 j)) (fun j => (m ((c.tc : Thread Cert.KernelIdeal.nD Cert.KernelIdeal.τ).loc Cert.KernelIdeal.main_arg9)) (ix1 j)) j
    ?_ ?_ ?_ ?_ ?_ ?_ ?_ ?_ ?_ ?_ ?_ rfl).trans ?_
  · intro q
    show (Cert.KernelIdeal.Gen.V m c Cert.KernelIdeal.main_v7 : Cert.KernelIdeal.S800000x64.Idx → EReal) (ix2 e q) = _
    rw [Cert.KernelIdeal.HostSide.V_v7, gather_eq]
  · intro q
    show (Cert.KernelIdeal.Gen.V m c Cert.KernelIdeal.main_v14 : Cert.KernelIdeal.S800000x64.Idx → EReal) (ix2 e q) = _
    rw [Cert.KernelIdeal.HostSide.V_v14, gather_eq']
  · intro q
    exact congrFun (Cert.KernelIdeal.Gen.V_main_arg1 m c) _
  · exact Cert.KernelIdeal.HostSide.V_v15_at m c
  · exact Cert.KernelIdeal.HostSide.V_v16_at m c
  · exact Cert.KernelIdeal.HostSide.V_v17_at m c
  · exact Cert.KernelIdeal.HostSide.V_v18_at m c
  · intro k j
    exact congrFun (Cert.KernelIdeal.Gen.V_main_arg6 m c) _
  · exact Cert.KernelIdeal.HostSide.V_v19_at m c
  · exact Cert.KernelIdeal.HostSide.V_v20_at m c
  · exact Cert.KernelIdeal.HostSide.V_v21_at m c
  · refine rowOut_congr _ _ _ _ _ _ _ _ (fun k => Eq.symm ?_)
    exact hidCat_eq_hid3 _ _ _ _ _ _ _ _ _
      (Cert.ReferenceIdeal.CatRead.cat_src _ _ _ _ e) (Cert.ReferenceIdeal.CatRead.cat_dst _ _ _ _ e)
      (Cert.ReferenceIdeal.CatRead.cat_edge _ _ _ _ e) (fun _ _ => rfl) (fun _ _ => rfl) (fun _ _ => rfl) k

end Cert.Proof.Bridge

end
-- ==== Proof.lean ====
/- The proof of `Cert.Claim` (proofs.«137404_j87522843558205_2_alg».proof.Defs): an edge update of a graph network —
   gather the source and destination node rows of each of 800000 edges, a two-layer perceptron with x·σ(x)
   activations on [source; destination; edge], a residual on the edge features and a layer normalization — as a kernel
   that runs the perceptron and the normalization on blocks of 8000 edges, against the plain array program.

   The three frames: the two kernel programs' frames are generated whole; the reference has no kernel, and its frame is
   its generated run with the result dropped. The ideal pass rewrote nothing, so `preserves` is trivial. `algebraic`:
   at the exact values the kernel's result array is one function of the arguments (Proof/KernelBlock.lean: one stored
   block entry by entry; Proof/KernelArray.lean: the 100 blocks cover the array; Proof/KernelHost.lean: what @main prepares
   before the region), the reference's result is read row by row (Proof/RefRead.lean, Proof/RefCat.lean), and the two
   are equal because the kernel's three 64-long contractions with the bands of the first weight matrix add up to the
   reference's one 192-long contraction of the concatenated row (Proof/RowSpec.lean, Proof/Bridge.lean) — a regrouping of
   a finite sum, valid on the extended reals without any finiteness assumption, so the precondition is never opened. -/
import proofs.«137404_j87522843558205_2_alg».proof.Defs
import proofs.«137404_j87522843558205_2_alg».proof.Proof.Gen.Kernel
import proofs.«137404_j87522843558205_2_alg».proof.Proof.Gen.Kernel.Skeleton
import proofs.«137404_j87522843558205_2_alg».proof.Proof.Gen.Kernel.Launch
import proofs.«137404_j87522843558205_2_alg».proof.Proof.Gen.Kernel.Points
import proofs.«137404_j87522843558205_2_alg».proof.Proof.Gen.Kernel.Frame
import proofs.«137404_j87522843558205_2_alg».proof.Proof.Gen.KernelIdeal
import proofs.«137404_j87522843558205_2_alg».proof.Proof.Gen.KernelIdeal.Skeleton
import proofs.«137404_j87522843558205_2_alg».proof.Proof.Gen.KernelIdeal.Launch
import proofs.«137404_j87522843558205_2_alg».proof.Proof.Gen.KernelIdeal.Points
import proofs.«137404_j87522843558205_2_alg».proof.Proof.Gen.KernelIdeal.Frame
import proofs.«137404_j87522843558205_2_alg».proof.Proof.Gen.ReferenceIdeal
import proofs.«137404_j87522843558205_2_alg».proof.Proof.Gen.KernelIdeal.Value
import proofs.«137404_j87522843558205_2_alg».proof.Proof.Gen.ReferenceIdeal.Run
import proofs.«137404_j87522843558205_2_alg».proof.Proof.Gen.ReferenceIdeal.Read
import proofs.«137404_j87522843558205_2_alg».proof.Proof.Gen.Pre_finite_inputs
import proofs.«137404_j87522843558205_2_alg».proof.Proof.Bridge
import Idealize.ShloMosaic.Adequacy
import Idealize.ShloMosaic.Init

noncomputable section

namespace Cert.Proof

open Idealize.ShloMosaic Idealize.SL.Sem

/-- The word-level kernel program runs and leaves its arguments unchanged: its generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of array operations: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same result array: the kernel's is
    `Whole.result` (its 100 blocks), and the reference's run ends at its composed term, which is that array
    (`Bridge.result_eq`). -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono
      (fun r h c => ⟨(h c).1.trans (Cert.KernelIdeal.Whole.final m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v49_eq, h0, h1, h2, h3, h4, h5, h6, h7, h8, h9]
    exact Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
